-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S1x256x32x128 : Shape := ⟨4, ![1, 256, 32, 128]⟩
abbrev S1x32x128 : Shape := ⟨3, ![1, 32, 128]⟩
abbrev S1x1x32x128 : Shape := ⟨4, ![1, 1, 32, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S16x256x128x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x256x32x128, .f32⟩
  | .local _ .vmem, ⟨3, _⟩ => ⟨S1x256x32x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x32x128_S1x256x32x128_0_0_0_0 : ∀ a, (![0, 0, 0, 0] : Fin 4 → Nat) a + S1x256x32x128.size a ≤ S1x256x32x128.size a
  h_S1x256x32x128 : 0 < S1x256x32x128.numel
  reduces_S1x256x32x128_S1x32x128 : S1x256x32x128.Reduces [1] S1x32x128
  shapeCasts_S1x32x128_S1x1x32x128 : S1x32x128.ShapeCasts S1x1x32x128
  broadcasts_S1x1x32x128_S1x256x32x128 : S1x1x32x128.Broadcasts S1x256x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S16x256x128x128.size a
  hwx0_0 : ∀ i : grid0.Coords, EltTy.bits .f32 = 32 ∨ (Rect.block (s := S16x256x128x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x128.size a ≤ S16x256x128x128.size a
  hwx0_1 : ∀ i : grid0.Coords, EltTy.bits .f32 = 32 ∨ (Rect.block (s := S16x256x128x128) S1x256x32x128.size (cc0_transform_1 i) (hinb0_1 i)).WholeWords (EltTy.packing .f32)

variable [Facts₀]

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S_ : Shape := ⟨0, ![]⟩
abbrev S16x128x128 : Shape := ⟨3, ![16, 128, 128]⟩
abbrev S16x1x128x128 : Shape := ⟨4, ![16, 1, 128, 128]⟩

abbrev nBuf : Space → Nat
  | .hbm => 6
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S_, .f32⟩
  | .hbm, ⟨2, _⟩ => ⟨S16x128x128, .f32⟩
  | .hbm, ⟨3, _⟩ => ⟨S16x1x128x128, .f32⟩
  | .hbm, ⟨4, _⟩ => ⟨S16x256x128x128, .f32⟩
  | .hbm, ⟨5, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  reducesTo_S16x256x128x128_S16x128x128_d1 : S16x256x128x128.ReducesTo [1] S16x128x128
  h_S_ : 0 < S_.numel
  bcast_S16x128x128_S16x1x128x128_0_2_3 : S16x128x128.BroadcastsInDim S16x1x128x128 (![0, 2, 3] : Fin 3 → Fin S16x1x128x128.rank)
  bcast_S16x1x128x128_S16x256x128x128_0_1_2_3 : S16x1x128x128.BroadcastsInDim S16x256x128x128 (![0, 1, 2, 3] : Fin 4 → Fin S16x256x128x128.rank)

variable [Facts₀]

class Facts : Prop extends Facts₀ where

variable [Facts]
-- ==== Proof.OtherChannels.lean ====
/-
  What both programs compute, as one function of the argument array.

  The argument is an array x of extended reals indexed by (batch b, channel c, row h, column w), of extents
  16 × 256 × 128 × 128.  The result at (b, c, h, w) is the sum of x over every channel at the same batch, row and
  column, minus x at (b, c, h, w) itself:

      others x (b, c, h, w) = (∑ k < 256, x (b, k, h, w)) − x (b, c, h, w).

  No law of arithmetic is used anywhere below beyond 0 + s = s: the two programs form the same sum over the channel
  axis, in whatever order, and subtract the same entry from it, so nothing here depends on the entries being finite.
-/
import Idealize.ShloMosaic.PureOps.Ideal
import Idealize.ShloMosaic.PureOps.Ideal.Laws

noncomputable section

namespace Cert.OtherChannels

open Idealize.ShloMosaic

/-- The array's shape: 16 batches, 256 channels, 128 rows, 128 columns. -/
abbrev Arr : Shape := ⟨4, ![16, 256, 128, 128]⟩

/-- The index `i` with its channel coordinate replaced by `k`: same batch, row and column, channel `k`. -/
abbrev atChannel (i : Arr.Idx) (k : Fin 256) : Arr.Idx := fun a => match a with
  | ⟨0, _⟩ => ⟨(i 0).val, (i 0).isLt⟩
  | ⟨1, _⟩ => ⟨k.val, k.isLt⟩
  | ⟨2, _⟩ => ⟨(i 2).val, (i 2).isLt⟩
  | ⟨3, _⟩ => ⟨(i 3).val, (i 3).isLt⟩

/-- The sum over all channels at `i`'s batch, row and column, minus the entry at `i`. -/
def others (x : Arr.Idx → EReal) : Arr.Idx → EReal :=
  fun i => (∑ k : Fin 256, x (atChannel i k)) - x i

theorem others_apply (x : Arr.Idx → EReal) (i : Arr.Idx) :
    others x i = (∑ k : Fin 256, x (atChannel i k)) - x i := rfl

end Cert.OtherChannels

end
-- ==== Proof.ReferenceValue.lean ====
/-
  The reference computes `others`.

  Read one operation at a time, the reference's result at (b, c, h, w) is
      (0 + ∑ k < 256, x (b, k, h, w)) − x (b, c, h, w):
  the sum over the channel axis started from the zero word, carried through two broadcasts that put the channel
  axis back (first as an axis of extent one, then repeated 256 times), and the argument subtracted entry by entry.
  The zero word is the real number 0, and 0 + s = s.
-/
import proofs.«109771_j14516989460712_1_alg».proof.Proof.Gen.ReferenceIdeal.Read
import proofs.«109771_j14516989460712_1_alg».proof.Proof.OtherChannels

noncomputable section

namespace Cert.OtherChannels

open Idealize.ShloMosaic Cert.ReferenceIdeal Cert.ReferenceIdeal.Read

/-- Through the two broadcasts and the reduction, the entry the reference's sum reads for the result index `i`
    and the summation index `k` is the argument at `i` with its channel replaced by `k`. -/
theorem reference_index (i : Arr.Idx) (k : Fin 256) :
    idx_main_v0 (idx_main_v1 (idx_main_v2 i)) k = atChannel i k :=
  funext fun a => Fin.ext (by match a with | ⟨0, _⟩ => rfl | ⟨1, _⟩ => rfl | ⟨2, _⟩ => rfl | ⟨3, _⟩ => rfl)

/-- The reference's last stage, as a function of the argument, is `others`. -/
theorem reference_eq (x : Arr.Idx → EReal) : val_main_v3 (F := Ideal) x = others x := by
  funext i
  rw [val_main_v3_apply, val_main_v2_apply, val_main_v1_apply, val_main_v0_apply, val_main_cst_apply]
  rw [Ideal.subf_def, Ideal.ofBits_def, Ideal.ofBits_zero_f32, zero_add, others_apply]
  simp only [reference_index]

end Cert.OtherChannels

end
-- ==== Proof.BlockValue.lean ====
/-
  What the kernel's body leaves in one output block.

  A block holds one batch, all 256 channels, 32 rows and 128 columns.  The body sums the block over its channel axis,
  puts the channel axis back by repeating that sum 256 times, and subtracts the block from it entry by entry.  So the
  block's entry at (0, c, r, w) is (∑ k < 256, P (0, k, r, w)) − P (0, c, r, w), where P is the input block.

  Stated here for any vector P in place of the input block and any placement `e` of block indices in the array: if
  P is the array x read through `e`, and `e` keeps batch, row and column while it moves along the channel axis, the
  block's entry at `y` is `others x` at `e y`.
-/
import proofs.«109771_j14516989460712_1_alg».proof.Proof.Gen.KernelIdeal.Value
import proofs.«109771_j14516989460712_1_alg».proof.Proof.OtherChannels

noncomputable section

namespace Cert.OtherChannels

open Idealize.ShloMosaic Cert.KernelIdeal Cert.KernelIdeal.Gen Cert.KernelIdeal.Value

/-- The block index the channel sum reads for the block index `y` and the summation index `k`: `y` with its
    channel coordinate replaced by `k`. -/
abbrev blockAtChannel (y : S1x256x32x128.Idx) (k : Fin 256) : S1x256x32x128.Idx :=
  reduces_S1x256x32x128_S1x32x128.lift (ix1_0 y) k

/-- Its coordinates: batch 0, channel `k`, and `y`'s row and column. -/
theorem blockAtChannel_val (y : S1x256x32x128.Idx) (k : Fin 256) :
    (blockAtChannel y k 0).val = 0 ∧ (blockAtChannel y k 1).val = k.val
      ∧ (blockAtChannel y k 2).val = (y 2).val ∧ (blockAtChannel y k 3).val = (y 3).val :=
  ⟨rfl, rfl, rfl, rfl⟩

/-- The body's result at a block index, when the input block is the array `x` read through `e`. -/
theorem block_value (x : Arr.Idx → EReal) (P : Vec Ideal S1x256x32x128 .f32) (e : S1x256x32x128.Idx → Arr.Idx)
    (hP : ∀ z, P z = x (e z)) (y : S1x256x32x128.Idx) (i : Arr.Idx)
    (hsum : ∀ k : Fin 256, e (blockAtChannel y k) = atChannel i k)
    (hown : e (ix1_1 y) = i) :
    E1 (F := Ideal) P y = others x i := by
  show FloatOps.subf (F := Ideal) (φ := .f32)
      (multiReduction (F := Ideal) .add [1] S1x32x128 P 0x00000000#32 reduces_S1x256x32x128_S1x32x128 (.inl rfl) rfl (ix1_0 y))
      (P (ix1_1 y)) = (∑ k : Fin 256, x (atChannel i k)) - x i
  rw [Ideal.subf_def]
  refine congrArg₂ (· - ·) ?_ ?_
  · refine (Ideal.multiReduction_add_single P 0x00000000#32 reduces_S1x256x32x128_S1x32x128 (.inl rfl) rfl (ix1_0 y)).trans ?_
    exact Finset.sum_congr rfl fun k _ => (hP _).trans (congrArg x (hsum k))
  · exact (hP _).trans (congrArg x hown)

end Cert.OtherChannels

end
-- ==== Proof.KernelValue.lean ====
/-
  From blocks to the whole array: the kernel's result array is `others` of its argument.

  The grid has 16 × 4 points.  At the point (b, q) the input block and the output block are the same part of their
  arrays: batch b, every channel, rows 32 q … 32 q + 31, every column.  The channel sum inside a block therefore runs
  over all 256 channels of the array at that batch, row and column, and the entry subtracted is the array's entry at
  the place the block's entry is written back to — so what the point writes back is the block of `others x`
  (`flushed_eq`).  Every index (b, c, h, w) of the array lies in the block of the point (b, h / 32), so the blocks
  cover the array (`covered`) and the array ends holding `others x` everywhere (`final`, `kernel_run`).
-/
import proofs.«109771_j14516989460712_1_alg».proof.Proof.Gen.KernelIdeal.Value
import proofs.«109771_j14516989460712_1_alg».proof.Proof.BlockValue
import Idealize.ShloMosaic.Lib.Pipeline.Value

noncomputable section

namespace Cert.OtherChannels

open Cert.KernelIdeal Cert.KernelIdeal.Gen Cert.KernelIdeal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- At every grid point the input block and the output block have the same block index, and that index is zero on
    the channel axis and on the column axis (a block spans all channels and all columns). -/
theorem block_indices : ∀ t : Fin cfg0.N, win0_0.index t (0 : Fin 4) = win0_1.index t (0 : Fin 4)
    ∧ win0_0.index t (1 : Fin 4) = 0 ∧ win0_1.index t (1 : Fin 4) = 0
    ∧ win0_0.index t (2 : Fin 4) = win0_1.index t (2 : Fin 4)
    ∧ win0_0.index t (3 : Fin 4) = 0 ∧ win0_1.index t (3 : Fin 4) = 0 :=
  (by decide +kernel : ∀ t : Fin grid0.N, _)

/-- Every pair (batch, band of 32 rows) is the output block index of some grid point. -/
theorem block_onto : ∀ (b : Fin 16) (q : Fin 4), ∃ t : Fin cfg0.N, win0_1.index t = ![b.val, 0, q.val, 0] :=
  (by decide +kernel : ∀ (b : Fin 16) (q : Fin 4), ∃ t : Fin grid0.N, win0_1.index t = ![b.val, 0, q.val, 0])

/-- What grid point `t` writes back is the block at `t` of `others` of the argument array. -/
theorem flushed_eq (c : Dev nD) (t : Fin cfg0.N) :
    (dats m 0 c).flushed 1 t = ((cfg0.win 1).blk t).view.read (Elt Ideal) (others (V m c main_arg0)) := by
  rw [flushed1]
  unfold out0_1
  funext j
  show View.canon [(⟨r0_0, k0_pay1 (View.ld (iblk m c 0 t) r0_0)⟩ : View.Piece (Elt Ideal) S1x256x32x128 .f32)] j
    = others (V m c main_arg0) (((cfg0.win 1).blk t).view.emb j)
  rw [canon1_eq, View.ld_unit_zero (S := S1x256x32x128) zero_offsets]
  obtain ⟨e0, e1, e2, e3, e4, e5⟩ := block_indices t
  have hj0 : (j 0).val < 1 := (j 0).isLt
  refine block_value (V m c main_arg0) (iblk m c 0 t) (((cfg0.win 0).blk t).view.emb) (fun z => rfl) j _ ?_ ?_
  · intro k
    obtain ⟨b0, b1, b2, b3⟩ := blockAtChannel_val j k
    funext a; apply Fin.ext
    match a with
    | ⟨0, _⟩ =>
      show win0_0.index t (0 : Fin 4) * 1 + 1 * (blockAtChannel j k 0).val = win0_1.index t (0 : Fin 4) * 1 + 1 * (j 0).val
      omega
    | ⟨1, _⟩ =>
      show win0_0.index t (1 : Fin 4) * 256 + 1 * (blockAtChannel j k 1).val = k.val
      omega
    | ⟨2, _⟩ =>
      show win0_0.index t (2 : Fin 4) * 32 + 1 * (blockAtChannel j k 2).val = win0_1.index t (2 : Fin 4) * 32 + 1 * (j 2).val
      omega
    | ⟨3, _⟩ =>
      show win0_0.index t (3 : Fin 4) * 128 + 1 * (blockAtChannel j k 3).val = win0_1.index t (3 : Fin 4) * 128 + 1 * (j 3).val
      omega
  · funext a; apply Fin.ext
    match a with
    | ⟨0, _⟩ =>
      show win0_0.index t (0 : Fin 4) * 1 + 1 * 0 = win0_1.index t (0 : Fin 4) * 1 + 1 * (j 0).val
      omega
    | ⟨1, _⟩ =>
      show win0_0.index t (1 : Fin 4) * 256 + 1 * (j 1).val = win0_1.index t (1 : Fin 4) * 256 + 1 * (j 1).val
      omega
    | ⟨2, _⟩ =>
      show win0_0.index t (2 : Fin 4) * 32 + 1 * (j 2).val = win0_1.index t (2 : Fin 4) * 32 + 1 * (j 2).val
      omega
    | ⟨3, _⟩ =>
      show win0_0.index t (3 : Fin 4) * 128 + 1 * (j 3).val = win0_1.index t (3 : Fin 4) * 128 + 1 * (j 3).val
      omega

/-- An index of the array is in point `t`'s output block iff each coordinate is in the block's range on its axis. -/
theorem mem_block (t : Fin cfg0.N) (i : S16x256x128x128.Idx) :
    i ∈ ((cfg0.win 1).blk t).view.set ↔ ∀ a : Fin 4, win0_1.index t a * S1x256x32x128.size a ≤ (i a).val
      ∧ (i a).val < win0_1.index t a * S1x256x32x128.size a + S1x256x32x128.size a := by
  show i ∈ ((View.whole main_v0).slice (win0_1.rect t)).set ↔ _
  rw [View.set_slice_whole, Rect.mem_set_unit]
  exact Iff.rfl

/-- The output blocks cover the array: the index (b, c, h, w) is in the block of the point whose block index is
    (b, 0, h / 32, 0). -/
theorem covered (i : S16x256x128x128.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := block_onto ⟨(i 0).val, hi0⟩ ⟨(i 2).val / 32, by omega⟩
  have q0 : win0_1.index t (0 : Fin 4) = (i 0).val := congrFun ht 0
  have q1 : win0_1.index t (1 : Fin 4) = 0 := congrFun ht 1
  have q2 : win0_1.index t (2 : Fin 4) = (i 2).val / 32 := congrFun ht 2
  have q3 : win0_1.index t (3 : Fin 4) = 0 := congrFun ht 3
  refine ⟨t, flush0_1 t, ?_⟩
  rw [mem_block]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 256 ≤ (i 1).val ∧ (i 1).val < win0_1.index t (1 : Fin 4) * 256 + 256
    omega
  | ⟨2, _⟩ =>
    show win0_1.index t (2 : Fin 4) * 32 ≤ (i 2).val ∧ (i 2).val < win0_1.index t (2 : Fin 4) * 32 + 32
    omega
  | ⟨3, _⟩ =>
    show win0_1.index t (3 : Fin 4) * 128 ≤ (i 3).val ∧ (i 3).val < win0_1.index t (3 : Fin 4) * 128 + 128
    omega

/-- The result array after the run is `others` of the argument array as the region found it. -/
theorem final (c : Dev nD) : (dats m 0 c).arrAt 1 cfg0.N = others (V m c main_arg0) :=
  (dats m 0 c).arrAt_eq_of_cover 1 (others (V m c main_arg0)) (fun t _ => flushed_eq m c t) covered

/-- The kernel's run, read: the result array is `others` of the argument, and the argument is unchanged. -/
theorem kernel_run : θ_run defs (onTc (τ := τ) (main (F := Ideal))) ⟨m, fun _ => 0, ρ⟩ fun r => ∀ c : Dev nD,
      r.2.mem ((c : Thread nD τ).loc main_v0) = others (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.OtherChannels

end
-- ==== Proof.lean ====
/-
  The kernel and its reference compute the same array.

  The argument x has extents 16 × 256 × 128 × 128, indexed (batch, channel, row, column).  Both programs return

      out (b, c, h, w) = (∑ k < 256, x (b, k, h, w)) − x (b, c, h, w):

  for every entry, the sum of the other channels at the same batch, row and column (Proof/OtherChannels.lean, `others`).

  * The reference forms the channel sum of the whole array starting from zero, repeats it along a new channel axis
    and subtracts x (Proof/ReferenceValue.lean: `reference_eq`; the only law used is 0 + s = s).
  * The kernel works block by block, a block being one batch, all channels, 32 rows and all columns.  Inside a block
    it forms the same channel sum, repeats it along the channel axis and subtracts the block
    (Proof/BlockValue.lean: `block_value`).  Because a block holds ALL channels, the sum inside the block is the sum
    over the array's whole channel axis; the blocks of the 16 × 4 grid points are disjoint and cover the array, so the
    result array is `others x` everywhere (Proof/KernelValue.lean: `flushed_eq`, `covered`, `kernel_run`).

  Both sides being the same sum and the same difference of the same entries, the equality holds for all extended-real
  entries; the finiteness of the input is not needed and is never opened.  The word-level kernel and its reading over
  the extended reals are the same program text (no operation was rewritten), so there is nothing to preserve.
-/
import proofs.«109771_j14516989460712_1_alg».proof.Defs
import proofs.«109771_j14516989460712_1_alg».proof.Proof.Gen.Kernel
import proofs.«109771_j14516989460712_1_alg».proof.Proof.Gen.Kernel.Skeleton
import proofs.«109771_j14516989460712_1_alg».proof.Proof.Gen.Kernel.Launch
import proofs.«109771_j14516989460712_1_alg».proof.Proof.Gen.Kernel.Points
import proofs.«109771_j14516989460712_1_alg».proof.Proof.Gen.Kernel.Frame
import proofs.«109771_j14516989460712_1_alg».proof.Proof.Gen.KernelIdeal
import proofs.«109771_j14516989460712_1_alg».proof.Proof.Gen.KernelIdeal.Skeleton
import proofs.«109771_j14516989460712_1_alg».proof.Proof.Gen.KernelIdeal.Launch
import proofs.«109771_j14516989460712_1_alg».proof.Proof.Gen.KernelIdeal.Points
import proofs.«109771_j14516989460712_1_alg».proof.Proof.Gen.KernelIdeal.Frame
import proofs.«109771_j14516989460712_1_alg».proof.Proof.Gen.ReferenceIdeal
import proofs.«109771_j14516989460712_1_alg».proof.Proof.Gen.Pre_finite_inputs
import proofs.«109771_j14516989460712_1_alg».proof.Proof.Gen.KernelIdeal.Value
import proofs.«109771_j14516989460712_1_alg».proof.Proof.Gen.ReferenceIdeal.Run
import proofs.«109771_j14516989460712_1_alg».proof.Proof.Gen.ReferenceIdeal.Read
import proofs.«109771_j14516989460712_1_alg».proof.Proof.ReferenceValue
import proofs.«109771_j14516989460712_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs to the end without a fault and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From arguments that agree, the kernel's result array and the reference's are both `others` of the argument. -/
theorem algebraic : Cert.algebraic_KernelIdeal_ReferenceIdeal := by
  intro m ρ m' ρ' _ hagree
  refine ⟨_, Cert.OtherChannels.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.OtherChannels.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
